-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S1600000 32) (main_arg2 : IVec S1600000 32) (main_arg3 : FVec F S128x128 .f32) (main_arg4 : FVec F S128 .f32) (main_arg5 : FVec F S128x128 .f32) (main_arg6 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S10000x128 : Shape := ⟨2, ![10000, 128]⟩

abbrev nBuf : Space → Nat
  | .hbm => 27
  | .vmem => 6
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S_, .f32⟩
  | .hbm, ⟨17, _⟩ => ⟨S100000x128, .f32⟩
  | .hbm, ⟨18, _⟩ => ⟨S1600000x1, .i32⟩
  | .hbm, ⟨19, _⟩ => ⟨S100000x128, .f32⟩
  | .hbm, ⟨20, _⟩ => ⟨S128x128, .f32⟩
  | .hbm, ⟨21, _⟩ => ⟨S1x128, .f32⟩
  | .hbm, ⟨22, _⟩ => ⟨S1x128, .f32⟩
  | .hbm, ⟨23, _⟩ => ⟨S128, .f32⟩
  | .hbm, ⟨24, _⟩ => ⟨S128, .f32⟩
  | .hbm, ⟨25, _⟩ => ⟨S1x128, .f32⟩
  | .hbm, ⟨26, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S1x128, .f32⟩
  | .local _ .vmem, ⟨4, _⟩ => ⟨S10000x128, .f32⟩
  | .local _ .vmem, ⟨5, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S128_S1x128 : S128.ShapeCasts S1x128
  shapeCasts_S1x128_S128 : S1x128.ShapeCasts S128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S128x128_S128x128_S128x128_1_0_0_1_n_n_wf : DotDims.WF S128x128 S128x128 S128x128 [1] [0] [0] [1] [] []
  dot_S1x128_S128x128_S1x128_1_0_0_1_n_n_wf : DotDims.WF S1x128 S128x128 S1x128 [1] [0] [0] [1] [] []
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_v9) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 31
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S_, .f32⟩
  | .hbm, ⟨17, _⟩ => ⟨S100000x128, .f32⟩
  | .hbm, ⟨18, _⟩ => ⟨S1600000x1, .i32⟩
  | .hbm, ⟨19, _⟩ => ⟨S100000x128, .f32⟩
  | .hbm, ⟨20, _⟩ => ⟨S100000x128, .f32⟩
  | .hbm, ⟨21, _⟩ => ⟨S1x128, .f32⟩
  | .hbm, ⟨22, _⟩ => ⟨S100000x128, .f32⟩
  | .hbm, ⟨23, _⟩ => ⟨S100000x128, .f32⟩
  | .hbm, ⟨24, _⟩ => ⟨S100000x128, .f32⟩
  | .hbm, ⟨25, _⟩ => ⟨S1x128, .f32⟩
  | .hbm, ⟨26, _⟩ => ⟨S100000x128, .f32⟩
  | .hbm, ⟨27, _⟩ => ⟨S100000x128, .f32⟩
  | .hbm, ⟨28, _⟩ => ⟨S_, .f32⟩
  | .hbm, ⟨29, _⟩ => ⟨S100000x128, .f32⟩
  | .hbm, ⟨30, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_cst : Ref sig .tc := ⟨.hbm, 28, rfl⟩
abbrev main_call0_v0 : Ref sig .tc := ⟨.hbm, 29, rfl⟩
abbrev main_v18 : Ref sig .tc := ⟨.hbm, 30, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LibRealEntries.lean ====
/-
  Extended reals that are real numbers: a small library.

  `IsReal x` says the extended real `x` is a real number (neither infinity). Real entries are closed under
  sums, products and finite sums; an entry below +∞ in absolute value is real; a scatter-add of real updates
  onto a real operand is real everywhere. The coercion ℝ → EReal commutes with finite sums. Last, one algebraic
  law that needs real entries (distributivity fails at the infinities): a row `a` through two affine maps in a
  row, `(a · W₁ + b₁) · W₂ + b₂`, is the row through the collapsed map, `a · (W₁ W₂) + (b₁ · W₂ + b₂)`.
-/
import Idealize.ShloMosaic.PureOps.Ideal

namespace Cert.Hand

open scoped BigOperators

/-- An extended real that is a real number (neither infinity). -/
def IsReal (x : EReal) : Prop := ∃ r : ℝ, x = (r : EReal)

theorem IsReal.zero : IsReal 0 := ⟨0, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A finite sum of real numbers is a real number. -/
theorem IsReal.sum {ι : Type} (s : Finset ι) (f : ι → EReal) (h : ∀ i ∈ s, IsReal (f i)) :
    IsReal (∑ i ∈ s, f i) := by
  classical
  induction s using Finset.induction_on with
  | empty => rw [Finset.sum_empty]; exact IsReal.zero
  | insert a s ha ih =>
    rw [Finset.sum_insert ha]
    exact (h a (Finset.mem_insert_self a s)).add (ih fun i hi => h i (Finset.mem_insert_of_mem hi))

/-- An extended real strictly between the infinities in absolute value is a real number. -/
theorem isReal_of_abs_lt_top {x : EReal} (h : max x (-x) < ⊤) : IsReal x := by
  induction x using EReal.rec with
  | bot => exact absurd h (by simp)
  | coe r => exact ⟨r, rfl⟩
  | top => exact absurd h (by simp)

/-- The coercion of a finite real sum is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- THE LAW: for a row `a`, weights `w₁`, `w₂` (the second at one output column) and biases `b₁`, `b₂`,
    all real, the collapsed affine map `a · (w₁ w₂) + (b₁ · w₂ + b₂)` is the two maps in a row,
    `(a · w₁ + b₁) · w₂ + b₂`. -/
theorem affine_collapse {K L : Type} [Fintype K] [Fintype L]
    (a : K → EReal) (w₁ : K → L → EReal) (b₁ : L → EReal) (w₂ : L → EReal) (b₂ : EReal)
    (ha : ∀ k, IsReal (a k)) (hw₁ : ∀ k l, IsReal (w₁ k l)) (hb₁ : ∀ l, IsReal (b₁ l))
    (hw₂ : ∀ l, IsReal (w₂ l)) (hb₂ : IsReal b₂) :
    (∑ k, a k * ∑ l, w₁ k l * w₂ l) + ((∑ l, b₁ l * w₂ l) + b₂)
      = (∑ l, ((∑ k, a k * w₁ k l) + b₁ l) * w₂ l) + b₂ := by
  choose a' ha' using ha
  choose w₁' hw₁' using hw₁
  choose b₁' hb₁' using hb₁
  choose w₂' hw₂' using hw₂
  obtain ⟨b₂', rfl⟩ := hb₂
  obtain rfl : a = fun k => (a' k : EReal) := funext ha'
  obtain rfl : w₁ = fun k l => (w₁' k l : EReal) := funext fun k => funext (hw₁' k)
  obtain rfl : b₁ = fun l => (b₁' l : EReal) := funext hb₁'
  obtain rfl : w₂ = fun l => (w₂' l : EReal) := funext hw₂'
  simp only [← EReal.coe_mul, ← coe_sum, ← EReal.coe_add]
  congr 1
  simp only [Finset.mul_sum, add_mul, Finset.sum_mul, Finset.sum_add_distrib]
  rw [Finset.sum_comm]
  simp only [mul_assoc, add_assoc]

/-- A scatter-add of real updates onto a real operand is real everywhere: each entry is the operand's entry
    plus a finite sum of updates (the ones that land on it). -/
theorem hostScatterAdd_isReal {s si su : Idealize.ShloMosaic.Shape} (d : Idealize.ShloMosaic.ScatterDims s si su) {w : Nat}
    (x : s.Idx → EReal) (idx : Idealize.ShloMosaic.IVec si w) (upd : su.Idx → EReal)
    (hx : ∀ i, IsReal (x i)) (hu : ∀ j, IsReal (upd j)) (i : s.Idx) :
    IsReal (Idealize.ShloMosaic.Ideal.hostScatterAdd d x idx upd i) :=
  IsReal.add (hx i) (IsReal.sum _ _ fun j _ => hu j)

end Cert.Hand
-- ==== Proof.RealLaw.lean ====
/-
  The one algebraic law of this certificate, on its arrays.

  The kernel applies ONE affine map to each row `a` of the aggregated features,
      a · (W₁ W₂) + (b₁ W₂ + b₂),
  the reference applies two in a row,
      (a · W₁ + b₁) · W₂ + b₂.
  Over the real numbers these agree by distributivity and by exchanging the two finite sums; on the extended
  reals only where the entries are real (LibRealEntries.lean has the law over abstract index types). Here it is
  stated at row `p` and column `q` of this program's arrays, with the clamp at zero on both sides.
-/
import proofs.«118704_j79362405696145_2_alg».proof.Proof.LibRealEntries
import Idealize.ShloMosaic.Lib.ValueIdx

namespace Cert.Hand

open scoped BigOperators

open Idealize.ShloMosaic Idealize.ShloMosaic.ValueIdx in
/-- The law on arrays, at row `p` and column `q`, with the clamp at zero on both sides: `A` is the [100000,128]
    array both programs multiply (real everywhere), `W₁`, `W₂` the [128,128] weights and `b₁`, `b₂` the biases. -/
theorem relu_affine_collapse
    (A : (⟨2, ![100000, 128]⟩ : Shape).Idx → EReal) (W₁ W₂ : (⟨2, ![128, 128]⟩ : Shape).Idx → EReal)
    (b₁ b₂ : (⟨1, ![128]⟩ : Shape).Idx → EReal)
    (hA : ∀ i, IsReal (A i)) (hW₁ : ∀ i, IsReal (W₁ i)) (hb₁ : ∀ i, IsReal (b₁ i)) (hW₂ : ∀ i, IsReal (W₂ i))
    (hb₂ : ∀ i, IsReal (b₂ i)) (p : Fin 100000) (q : Fin 128) :
    max ((∑ k : Fin 128, A (ix2 p k) * ∑ l : Fin 128, W₁ (ix2 k l) * W₂ (ix2 l q))
          + ((∑ l : Fin 128, b₁ (ix1 l) * W₂ (ix2 l q)) + b₂ (ix1 q))) 0
      = max ((∑ l : Fin 128, ((∑ k : Fin 128, A (ix2 p k) * W₁ (ix2 k l)) + b₁ (ix1 l)) * W₂ (ix2 l q))
          + b₂ (ix1 q)) 0 :=
  congrArg (fun z => max z 0)
    (affine_collapse (fun k => A (ix2 p k)) (fun k l => W₁ (ix2 k l)) (fun l => b₁ (ix1 l)) (fun l => W₂ (ix2 l q))
      (b₂ (ix1 q)) (fun _ => hA _) (fun _ _ => hW₁ _) (fun _ => hb₁ _) (fun _ => hW₂ _) (hb₂ _))

end Cert.Hand
-- ==== Proof.FiniteInputs.lean ====
/-
  The precondition, read back: every float input is a real number at every index.

  The precondition says that the conjunction, over the five float inputs, of "every entry is below +∞ in
  absolute value" is true. A conjunction of bits that is 1 has every conjunct 1; an all-reduction by `and`
  that is 1 has every element 1; and an extended real whose absolute value is below +∞ is a real number.
-/
import proofs.«118704_j79362405696145_2_alg».proof.Pre_finite_inputs
import proofs.«118704_j79362405696145_2_alg».proof.Proof.RealLaw
import Idealize.ShloMosaic.Lib.ReduceAll
import Idealize.ShloMosaic.Lib.ValueIdx
import Idealize.ShloMosaic.Lib.Pipeline.Value
import Idealize.ShloMosaic.PureOps.Ideal.Laws

noncomputable section

namespace Cert.Hand

open Cert.Pre_finite_inputs Idealize.ShloMosaic Idealize.ShloMosaic.ValueIdx

variable [Cert.Pre_finite_inputs.Facts]
open Cert.Pre_finite_inputs.Facts

instance subsingleton_scalar_idx : Subsingleton S_.Idx := ⟨fun a b => funext fun d => d.elim0⟩

/-- One element of a test "|a| < +∞" that came out true is a real number. -/
theorem isReal_of_test {s : Shape} (a : FVec Ideal s .f32) (hb : S_.BroadcastsInDim s (![] : Fin 0 → Fin s.rank))
    (i : s.Idx)
    (h : cmpf .olt (Host.absf a) (broadcastInDim s ![] hb (constant (F := Ideal) S_ .f32 0x7F800000#32)) i = 1#1) :
    IsReal (a i) := by
  have hinf : broadcastInDim s ![] hb (constant (F := Ideal) S_ .f32 0x7F800000#32) i = (⊤ : EReal) := by
    rw [broadcastInDim_apply _ hb _ i ix0 (fun a => a.elim0)]
    show Ideal.ofBits .f32 0x7F800000#32 = ⊤
    simp [Ideal.ofBits, Ideal.ieee]
  have h' : Ideal.cmp .olt (max (a i) (-(a i))) (broadcastInDim s ![] hb (constant (F := Ideal) S_ .f32 0x7F800000#32) i) = 1#1 := h
  rw [hinf] at h'
  have h2 : BitVec.ofBool (decide (max (a i) (-(a i)) < (⊤ : EReal))) = 1#1 := h'
  apply isReal_of_abs_lt_top
  by_contra hc
  rw [decide_eq_false hc] at h2
  exact absurd h2 (by decide)

/-- Under the precondition every float input holds real numbers. -/
theorem inputs_real (a0 : FVec Ideal S100000x128 .f32) (a1 a2 : IVec S1600000 32) (a3 : FVec Ideal S128x128 .f32)
    (a4 : FVec Ideal S128 .f32) (a5 : FVec Ideal S128x128 .f32) (a6 : FVec Ideal S128 .f32)
    (h : fn (F := Ideal) a0 a1 a2 a3 a4 a5 a6 = fun _ => 1#1) :
    (∀ i, IsReal (a0 i)) ∧ (∀ i, IsReal (a3 i)) ∧ (∀ i, IsReal (a4 i)) ∧ (∀ i, IsReal (a5 i)) ∧ (∀ i, IsReal (a6 i)) := by
  have h0 := congrFun h ix0
  dsimp only [fn, fn_part1] at h0
  obtain ⟨h0123, h6⟩ := IntOp.andi_eq_one.1 h0
  obtain ⟨h012, h5⟩ := IntOp.andi_eq_one.1 h0123
  obtain ⟨h01, h4⟩ := IntOp.andi_eq_one.1 h012
  obtain ⟨h00, h3⟩ := IntOp.andi_eq_one.1 h01
  exact ⟨fun i => isReal_of_test a0 _ i (Host.reduce_andi_all _ _ _ _ ix0 h00 i),
    fun i => isReal_of_test a3 _ i (Host.reduce_andi_all _ _ _ _ ix0 h3 i),
    fun i => isReal_of_test a4 _ i (Host.reduce_andi_all _ _ _ _ ix0 h4 i),
    fun i => isReal_of_test a5 _ i (Host.reduce_andi_all _ _ _ _ ix0 h5 i),
    fun i => isReal_of_test a6 _ i (Host.reduce_andi_all _ _ _ _ ix0 h6 i)⟩

end Cert.Hand

end
-- ==== Proof.KernelDots.lean ====
/-
  The three matrix products on the kernel's side, each read at one element as a plain sum over the
  contracted axis: the body's product of a row block with the composed weight, and the two small
  products the wrapper forms before the call (the composed weight W₁ W₂ and the row b₁ W₂).
-/
import proofs.«118704_j79362405696145_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.Hand

open Cert.KernelIdeal Cert.KernelIdeal.Gen Idealize.ShloMosaic Idealize.ShloMosaic.ValueIdx

theorem blockDot_lhs0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem blockDot_rhs1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl
/-- The body's matrix product into a zero accumulator, at row `r` of the block and column `q` (the roundings to bf16 on the way in are the identity on the extended reals). -/
theorem blockDot (v0 : FVec Ideal S10000x128 .f32) (v3 : FVec Ideal S128x128 .f32) (r : Fin 10000) (q : Fin 128) :
    FloatOps.matmul (F := Ideal) dot_S10000x128_S128x128_S10000x128_1_0_0_1_n_n none (truncf .bf16 v0 bitsLt_bf16_f32) (truncf .bf16 v3 bitsLt_bf16_f32) (constant S10000x128 .f32 0x00000000#32) (ix2 r q) = ∑ l : Fin 128, v0 (ix2 r l) * v3 (ix2 l q) := by
  rw [Ideal.matmul_constant_zero_apply]
  show ∑ k : dot_S10000x128_S128x128_S10000x128_1_0_0_1_n_n.contr.Idx, v0 (dot_S10000x128_S128x128_S10000x128_1_0_0_1_n_n.lhsIdx (ix2 r q) k) * v3 (dot_S10000x128_S128x128_S10000x128_1_0_0_1_n_n.rhsIdx (ix2 r q) k) = _
  rw [← Equiv.sum_comp (contrEquiv1 dot_S10000x128_S128x128_S10000x128_1_0_0_1_n_n 128 rfl rfl).symm]
  refine Finset.sum_congr rfl fun l _ => ?_
  have hl := contrEquiv1_symm_val dot_S10000x128_S128x128_S10000x128_1_0_0_1_n_n 128 rfl rfl l
  have el : dot_S10000x128_S128x128_S10000x128_1_0_0_1_n_n.lhsIdx (ix2 r q) ((contrEquiv1 dot_S10000x128_S128x128_S10000x128_1_0_0_1_n_n 128 rfl rfl).symm l) = ix2 r l := funext fun a => Fin.ext (by
    match a with
    | ⟨0, _⟩ => exact blockDot_lhs0 _ _
    | ⟨1, _⟩ => exact ((dot_S10000x128_S128x128_S10000x128_1_0_0_1_n_n).lhsIdx_val_of_single rfl _ _).trans hl)
  have er : dot_S10000x128_S128x128_S10000x128_1_0_0_1_n_n.rhsIdx (ix2 r q) ((contrEquiv1 dot_S10000x128_S128x128_S10000x128_1_0_0_1_n_n 128 rfl rfl).symm l) = ix2 l q := funext fun a => Fin.ext (by
    match a with
    | ⟨0, _⟩ => exact ((dot_S10000x128_S128x128_S10000x128_1_0_0_1_n_n).rhsIdx_val_of_single rfl _ _).trans hl
    | ⟨1, _⟩ => exact blockDot_rhs1 _ _)
  rw [el, er]

theorem weightDot_lhs0 (i : S128x128.Idx) (q : dot_S128x128_S128x128_S128x128_1_0_0_1_n_n.contr.Idx) :
    (dot_S128x128_S128x128_S128x128_1_0_0_1_n_n.lhsIdx i q 0).val = (i 0).val := by
  unfold DotDims.lhsIdx
  rw [dif_neg (show ¬(0 : Fin S128x128.rank) ∈ dot_S128x128_S128x128_S128x128_1_0_0_1_n_n.lhsBatch by decide), dif_pos (show (0 : Fin S128x128.rank) ∈ dot_S128x128_S128x128_S128x128_1_0_0_1_n_n.lhsNonContracting by decide)]
  rfl
theorem weightDot_rhs1 (i : S128x128.Idx) (q : dot_S128x128_S128x128_S128x128_1_0_0_1_n_n.contr.Idx) :
    (dot_S128x128_S128x128_S128x128_1_0_0_1_n_n.rhsIdx i q 1).val = (i 1).val := by
  unfold DotDims.rhsIdx
  rw [dif_neg (show ¬(1 : Fin S128x128.rank) ∈ dot_S128x128_S128x128_S128x128_1_0_0_1_n_n.rhsBatch by decide), dif_pos (show (1 : Fin S128x128.rank) ∈ dot_S128x128_S128x128_S128x128_1_0_0_1_n_n.rhsNonContracting by decide)]
  rfl
/-- The composed weight W₁ W₂ at row `k`, column `q`. -/
theorem weightDot (x3 x5 : FVec Ideal S128x128 .f32) (k q : Fin 128) :
    Host.dotGeneral (F := Ideal) dot_S128x128_S128x128_S128x128_1_0_0_1_n_n none x3 x5 (ix2 k q) = ∑ l : Fin 128, x3 (ix2 k l) * x5 (ix2 l q) := by
  simp only [Host.dotGeneral]
  rw [Ideal.dotGeneral_apply]
  rw [← Equiv.sum_comp (contrEquiv1 dot_S128x128_S128x128_S128x128_1_0_0_1_n_n 128 rfl rfl).symm]
  refine Finset.sum_congr rfl fun l _ => ?_
  have hl := contrEquiv1_symm_val dot_S128x128_S128x128_S128x128_1_0_0_1_n_n 128 rfl rfl l
  have el : dot_S128x128_S128x128_S128x128_1_0_0_1_n_n.lhsIdx (ix2 k q) ((contrEquiv1 dot_S128x128_S128x128_S128x128_1_0_0_1_n_n 128 rfl rfl).symm l) = ix2 k l := funext fun a => Fin.ext (by
    match a with
    | ⟨0, _⟩ => exact weightDot_lhs0 _ _
    | ⟨1, _⟩ => exact ((dot_S128x128_S128x128_S128x128_1_0_0_1_n_n).lhsIdx_val_of_single rfl _ _).trans hl)
  have er : dot_S128x128_S128x128_S128x128_1_0_0_1_n_n.rhsIdx (ix2 k q) ((contrEquiv1 dot_S128x128_S128x128_S128x128_1_0_0_1_n_n 128 rfl rfl).symm l) = ix2 l q := funext fun a => Fin.ext (by
    match a with
    | ⟨0, _⟩ => exact ((dot_S128x128_S128x128_S128x128_1_0_0_1_n_n).rhsIdx_val_of_single rfl _ _).trans hl
    | ⟨1, _⟩ => exact weightDot_rhs1 _ _)
  rw [el, er]

theorem biasDot_lhs0 (i : S1x128.Idx) (q : dot_S1x128_S128x128_S1x128_1_0_0_1_n_n.contr.Idx) :
    (dot_S1x128_S128x128_S1x128_1_0_0_1_n_n.lhsIdx i q 0).val = (i 0).val := by
  unfold DotDims.lhsIdx
  rw [dif_neg (show ¬(0 : Fin S1x128.rank) ∈ dot_S1x128_S128x128_S1x128_1_0_0_1_n_n.lhsBatch by decide), dif_pos (show (0 : Fin S1x128.rank) ∈ dot_S1x128_S128x128_S1x128_1_0_0_1_n_n.lhsNonContracting by decide)]
  rfl
theorem biasDot_rhs1 (i : S1x128.Idx) (q : dot_S1x128_S128x128_S1x128_1_0_0_1_n_n.contr.Idx) :
    (dot_S1x128_S128x128_S1x128_1_0_0_1_n_n.rhsIdx i q 1).val = (i 1).val := by
  unfold DotDims.rhsIdx
  rw [dif_neg (show ¬(1 : Fin S128x128.rank) ∈ dot_S1x128_S128x128_S1x128_1_0_0_1_n_n.rhsBatch by decide), dif_pos (show (1 : Fin S128x128.rank) ∈ dot_S1x128_S128x128_S1x128_1_0_0_1_n_n.rhsNonContracting by decide)]
  rfl
/-- The row b₁ W₂ (as a 1×128 product) at column `q`. -/
theorem biasDot (y : FVec Ideal S1x128 .f32) (x5 : FVec Ideal S128x128 .f32) (u : Fin 1) (q : Fin 128) :
    Host.dotGeneral (F := Ideal) dot_S1x128_S128x128_S1x128_1_0_0_1_n_n none y x5 (ix2 u q) = ∑ l : Fin 128, y (ix2 u l) * x5 (ix2 l q) := by
  simp only [Host.dotGeneral]
  rw [Ideal.dotGeneral_apply]
  rw [← Equiv.sum_comp (contrEquiv1 dot_S1x128_S128x128_S1x128_1_0_0_1_n_n 128 rfl rfl).symm]
  refine Finset.sum_congr rfl fun l _ => ?_
  have hl := contrEquiv1_symm_val dot_S1x128_S128x128_S1x128_1_0_0_1_n_n 128 rfl rfl l
  have el : dot_S1x128_S128x128_S1x128_1_0_0_1_n_n.lhsIdx (ix2 u q) ((contrEquiv1 dot_S1x128_S128x128_S1x128_1_0_0_1_n_n 128 rfl rfl).symm l) = ix2 u l := funext fun a => Fin.ext (by
    match a with
    | ⟨0, _⟩ => exact biasDot_lhs0 _ _
    | ⟨1, _⟩ => exact ((dot_S1x128_S128x128_S1x128_1_0_0_1_n_n).lhsIdx_val_of_single rfl _ _).trans hl)
  have er : dot_S1x128_S128x128_S1x128_1_0_0_1_n_n.rhsIdx (ix2 u q) ((contrEquiv1 dot_S1x128_S128x128_S1x128_1_0_0_1_n_n 128 rfl rfl).symm l) = ix2 l q := funext fun a => Fin.ext (by
    match a with
    | ⟨0, _⟩ => exact ((dot_S1x128_S128x128_S1x128_1_0_0_1_n_n).rhsIdx_val_of_single rfl _ _).trans hl
    | ⟨1, _⟩ => exact biasDot_rhs1 _ _)
  rw [el, er]

end Cert.Hand

end
-- ==== Proof.RefAt.lean ====
/-
  The reference's result read at one element.

  The reference aggregates the node features (a gather along the edges' sources scattered and added onto
  the edges' targets: the array `Agg`), then applies two affine maps in a row and clamps below at zero:
  at row `p` and column `q`
      max ( ∑ l, ( ∑ k, Agg[p,k] · W₁[k,l] + b₁[l] ) · W₂[l,q] + b₂[q] , 0 ).
  Each host operation is read at an index by the generated stage lemmas; here they are chained and the
  composed index functions are identified with plain coordinates.
-/
import proofs.«118704_j79362405696145_2_alg».proof.Proof.Gen.ReferenceIdeal.Read
import proofs.«118704_j79362405696145_2_alg».proof.Proof.RealLaw

noncomputable section

namespace Cert.Hand

open Cert.ReferenceIdeal Cert.ReferenceIdeal.Read Idealize.ShloMosaic Idealize.ShloMosaic.ValueIdx

/-- The aggregated features: the reference's scatter-add of the gathered rows. -/
abbrev Agg (x0 : FVec Ideal S100000x128 .f32) (x1 x2 : IVec S1600000 32) : FVec Ideal S100000x128 .f32 :=
  val_main_v9 (F := Ideal) x0 x1 x2

/-- The array the scatter adds onto is zero everywhere. -/
theorem zeros_real (i : S100000x128.Idx) : IsReal (val_main_v7 (F := Ideal) i) := by
  rw [val_main_v7_apply, val_main_cst_apply, Ideal.ofBits_def, Ideal.ofBits_zero_f32]
  exact IsReal.zero

/-- A gathered entry is an entry of the node features (the start index is clamped into range, so the gather
    always reads inside the array). -/
theorem gathered_real (x0 : FVec Ideal S100000x128 .f32) (x1 : IVec S1600000 32) (hx0 : ∀ i, IsReal (x0 i))
    (j : S1600000x128.Idx) : IsReal (val_main_v6 (F := Ideal) x0 x1 j) := hx0 _

/-- The aggregation is the exact scatter-add of the gathered rows onto zeros (as whole arrays: the sum over
    the edges is never opened at an element here). -/
theorem agg_eq (x0 : FVec Ideal S100000x128 .f32) (x1 x2 : IVec S1600000 32) :
    Agg x0 x1 x2 = Ideal.hostScatterAdd scatter_S100000x128_S1600000x1_S1600000x128_1_0_0_1 (val_main_v7 (F := Ideal))
      (val_main_v8 (F := Ideal) x2) (val_main_v6 (F := Ideal) x0 x1) := rfl

/-- Every aggregated feature is a real number when every node feature is. -/
theorem agg_real (x0 : FVec Ideal S100000x128 .f32) (x1 x2 : IVec S1600000 32) (hx0 : ∀ i, IsReal (x0 i))
    (i : S100000x128.Idx) : IsReal (Agg x0 x1 x2 i) := by
  rw [agg_eq]
  exact hostScatterAdd_isReal scatter_S100000x128_S1600000x1_S1600000x128_1_0_0_1 (val_main_v7 (F := Ideal))
    (val_main_v8 (F := Ideal) x2) (val_main_v6 (F := Ideal) x0 x1) zeros_real (gathered_real x0 x1 hx0) i

/-- The reference's result at row `p`, column `q`. -/
theorem ref_apply (x0 : FVec Ideal S100000x128 .f32) (x1 x2 : IVec S1600000 32) (x3 : FVec Ideal S128x128 .f32)
    (x4 : FVec Ideal S128 .f32) (x5 : FVec Ideal S128x128 .f32) (x6 : FVec Ideal S128 .f32)
    (p : Fin 100000) (q : Fin 128) :
    val_main_v18 (F := Ideal) x0 x1 x2 x3 x4 x5 x6 (ix2 p q)
      = max ((∑ l : Fin 128, ((∑ k : Fin 128, Agg x0 x1 x2 (ix2 p k) * x3 (ix2 k l)) + x4 (ix1 l)) * x5 (ix2 l q))
          + x6 (ix1 q)) 0 := by
  have e1 : ∀ l : Fin 128, lidx_main_v14 (ix2 p q) l = ix2 p l := fun l =>
    funext fun a => Fin.ext (by match a with | ⟨0, _⟩ => rfl | ⟨1, _⟩ => rfl)
  have e2 : ∀ l : Fin 128, ridx_main_v14 (ix2 p q) l = ix2 l q := fun l =>
    funext fun a => Fin.ext (by match a with | ⟨0, _⟩ => rfl | ⟨1, _⟩ => rfl)
  have e3 : ∀ l k : Fin 128, lidx_main_v10 (ix2 p l) k = ix2 p k := fun l k =>
    funext fun a => Fin.ext (by match a with | ⟨0, _⟩ => rfl | ⟨1, _⟩ => rfl)
  have e4 : ∀ l k : Fin 128, ridx_main_v10 (ix2 p l) k = ix2 k l := fun l k =>
    funext fun a => Fin.ext (by match a with | ⟨0, _⟩ => rfl | ⟨1, _⟩ => rfl)
  have e5 : ∀ l : Fin 128, idx_main_v11 (idx_main_v12 (ix2 p l)) = ix1 l := fun l =>
    funext fun a => Fin.ext (by match a with | ⟨0, _⟩ => rfl)
  have e6 : idx_main_v15 (idx_main_v16 (ix2 p q)) = ix1 q :=
    funext fun a => Fin.ext (by match a with | ⟨0, _⟩ => rfl)
  rw [val_main_v18_apply, val_main_v17_apply, val_main_v14_apply, val_main_v16_apply, val_main_v15_apply,
    val_main_call0_v0_apply, val_main_call0_cst_apply]
  rw [Ideal.maximumf_def, Ideal.addf_def, Ideal.ofBits_def, Ideal.ofBits_zero_f32, e6]
  refine congrArg (fun z => max (z + x6 (ix1 q)) 0) (Finset.sum_congr rfl fun l _ => ?_)
  rw [e1 l, e2 l, val_main_v13_apply, val_main_v10_apply, val_main_v12_apply, val_main_v11_apply, Ideal.addf_def, e5 l]
  refine congrArg (fun z => (z + x4 (ix1 l)) * x5 (ix2 l q)) (Finset.sum_congr rfl fun k _ => ?_)
  rw [e3 l k, e4 l k]

end Cert.Hand

end
-- ==== Proof.KernelVals.lean ====
/-
  The kernel's side, value by value.

  Before the call the wrapper forms the aggregation (the same gather and scatter-add as the reference), the
  composed weight `W₁ W₂` and the composed bias `b₁ W₂ + b₂` (as a 1×128 row). The body multiplies a block of
  10000 rows of the aggregation by the composed weight, adds the bias row to every row and clamps below at
  zero. Here: what the region finds in its three input arrays, the two small products at one element, and the
  body's stored value at one element of the block.
-/
import proofs.«118704_j79362405696145_2_alg».proof.Proof.Gen.KernelIdeal.Value
import proofs.«118704_j79362405696145_2_alg».proof.Proof.Gen.ReferenceIdeal.Read
import proofs.«118704_j79362405696145_2_alg».proof.Proof.KernelDots
import proofs.«118704_j79362405696145_2_alg».proof.Proof.RefAt
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

namespace Cert.Hand

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-! ## The arguments, typed -/

abbrev arg0 (c : Dev nD) : FVec Ideal S100000x128 .f32 := m ((c.tc : Thread nD τ).loc main_arg0)
abbrev arg1 (c : Dev nD) : IVec S1600000 32 := m ((c.tc : Thread nD τ).loc main_arg1)
abbrev arg2 (c : Dev nD) : IVec S1600000 32 := m ((c.tc : Thread nD τ).loc main_arg2)
abbrev arg3 (c : Dev nD) : FVec Ideal S128x128 .f32 := m ((c.tc : Thread nD τ).loc main_arg3)
abbrev arg4 (c : Dev nD) : FVec Ideal S128 .f32 := m ((c.tc : Thread nD τ).loc main_arg4)
abbrev arg5 (c : Dev nD) : FVec Ideal S128x128 .f32 := m ((c.tc : Thread nD τ).loc main_arg5)
abbrev arg6 (c : Dev nD) : FVec Ideal S128 .f32 := m ((c.tc : Thread nD τ).loc main_arg6)

/-! ## What the wrapper computes before the call -/

/-- The composed weight `W₁ W₂`. -/
def Wc (x3 x5 : FVec Ideal S128x128 .f32) : FVec Ideal S128x128 .f32 :=
  Host.dotGeneral (F := Ideal) dot_S128x128_S128x128_S128x128_1_0_0_1_n_n none x3 x5

/-- The composed bias `b₁ W₂ + b₂`, as the 1×128 row the kernel is given. -/
def bc (x4 : FVec Ideal S128 .f32) (x5 : FVec Ideal S128x128 .f32) (x6 : FVec Ideal S128 .f32) : FVec Ideal S1x128 .f32 :=
  shapeCast S1x128 (addf (shapeCast S128 (Host.dotGeneral (F := Ideal) dot_S1x128_S128x128_S1x128_1_0_0_1_n_n none
    (shapeCast S1x128 x4 shapeCasts_S128_S1x128) x5) shapeCasts_S1x128_S128) x6) shapeCasts_S128_S1x128

/-- The composed weight at row `k`, column `q`. -/
theorem Wc_apply (x3 x5 : FVec Ideal S128x128 .f32) (k q : Fin 128) :
    Wc x3 x5 (ix2 k q) = ∑ l : Fin 128, x3 (ix2 k l) * x5 (ix2 l q) := by
  unfold Wc
  exact weightDot x3 x5 k q

/-- The composed bias at column `q`. -/
theorem bc_apply (x4 : FVec Ideal S128 .f32) (x5 : FVec Ideal S128x128 .f32) (x6 : FVec Ideal S128 .f32) (u : Fin 1) (q : Fin 128) :
    bc x4 x5 x6 (ix2 u q) = (∑ l : Fin 128, x4 (ix1 l) * x5 (ix2 l q)) + x6 (ix1 q) := by
  unfold bc
  rw [shapeCast_a_1a_apply]
  show shapeCast S128 _ shapeCasts_S1x128_S128 (ix1 q) + x6 (ix1 q) = _
  rw [shapeCast_1a_a_apply, biasDot]
  simp only [shapeCast_a_1a_apply]

/-! ## The arrays the region finds: the aggregation, the composed weight, the composed bias -/

/-- The first operand of the call is the aggregation, the same array the reference forms (the two programs
    spell the gather and the scatter-add identically). -/
theorem V_agg (c : Dev nD) : (V m c main_v9 : FVec Ideal S100000x128 .f32)
    = Agg (arg0 m c) (arg1 m c) (arg2 m c) := by
  dsimp only [Gen.V, Gen.hostOps0]
  after_results <;> rfl

theorem V_weight (c : Dev nD) : (V m c main_v10 : FVec Ideal S128x128 .f32) = Wc (arg3 m c) (arg5 m c) := by
  dsimp only [Gen.V, Gen.hostOps0]
  after_results <;> rfl

theorem V_bias (c : Dev nD) : (V m c main_v15 : FVec Ideal S1x128 .f32) = bc (arg4 m c) (arg5 m c) (arg6 m c) := by
  dsimp only [Gen.V, Gen.hostOps0]
  after_results <;> rfl

/-! ## The body's stored value at one element -/

/-- At row `r` of the block and column `q` the body stores `max (∑ k, x[r,k] · w[k,q] + b[0,q], 0)`. -/
theorem pay_apply (v0 : Vec Ideal S10000x128 .f32) (v3 : Vec Ideal S128x128 .f32) (v7 : Vec Ideal S1x128 .f32)
    (r : Fin 10000) (q : Fin 128) :
    k0_pay1 v0 v3 v7 (ix2 r q) = max ((∑ k : Fin 128, v0 (ix2 r k) * v3 (ix2 k q)) + v7 (ix2 (0 : Fin 1) q)) 0 := by
  unfold k0_pay1
  simp only [shapeCast_self]
  show max (FloatOps.matmul (F := Ideal) dot_S10000x128_S128x128_S10000x128_1_0_0_1_n_n none (truncf .bf16 v0 bitsLt_bf16_f32)
      (truncf .bf16 v3 bitsLt_bf16_f32) (constant S10000x128 .f32 0x00000000#32) (ix2 r q)
      + broadcastTo S10000x128 v7 broadcasts_S1x128_S10000x128 (ix2 r q)) (Ideal.ofBits .f32 0x00000000#32) = _
  rw [blockDot, broadcastTo_1b_ab_apply, Ideal.ofBits_zero_f32]

end Cert.Hand

end
-- ==== Proof.KernelRun.lean ====
/-
  From blocks to the array: the kernel's result array after the run.

  The grid has ten points; point `t` stages rows `10000 t … 10000 t + 9999` of the aggregation, the whole
  composed weight and the whole composed bias, and writes back rows `10000 t … 10000 t + 9999` of the result.
  Element by element the stored value is the collapsed affine map clamped at zero, which on real entries is the
  reference's two affine maps in a row (the law of RealLaw.lean; the aggregation is real by RefAt.lean). The ten
  blocks cover the result array, so the array ends holding the reference's function of the arguments.
  Every statement about a block is made over an arbitrary array staged through the window, and the arrays of this
  program are put in only at the end, so that the sum over the edges inside the aggregation is never opened.
-/
import proofs.«118704_j79362405696145_2_alg».proof.Proof.KernelVals
import proofs.«118704_j79362405696145_2_alg».proof.Proof.RealLaw
import proofs.«118704_j79362405696145_2_alg».proof.Proof.RefAt
import Idealize.ShloMosaic.Lib.Pipeline.Value
import Idealize.ShloMosaic.Lib.Tactic

noncomputable section

namespace Cert.Hand

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps over the ten grid points: the row block and the output block move with the point,
    the weight and the bias stay at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `r` of the row block at point `t`, read off any array `A` of the aggregation's shape, is row
    `10000 t + r` of `A`. -/
theorem rows_read (A : FVec Ideal S100000x128 .f32) (t : Fin cfg0.N) (y : S10000x128.Idx) (i : S100000x128.Idx)
    (h0 : (i 0).val = 10000 * t.val + (y 0).val) (h1 : (i 1).val = (y 1).val) :
    (((cfg0.win 0).blk t).view.read (Elt Ideal) A : Vec Ideal S10000x128 .f32) y = A i := by
  obtain ⟨e0, e1, -⟩ := idx_facts t
  rw [View.read_apply]
  show A _ = A _
  refine congrArg A ?_
  funext a
  apply Fin.ext
  match a with
  | ⟨0, _⟩ => show win0_0.index t 0 * 10000 + 1 * (y 0).val = (i 0).val; rw [e0, h0]; omega
  | ⟨1, _⟩ => show win0_0.index t 1 * 128 + 1 * (y 1).val = (i 1).val; rw [e1, h1]; omega

/-- The weight window's block, read off any [128,128] array, is that array, at every point. -/
theorem weight_read (W : FVec Ideal S128x128 .f32) (t : Fin cfg0.N) (y : S128x128.Idx) :
    (((cfg0.win 1).blk t).view.read (Elt Ideal) W : Vec Ideal S128x128 .f32) y = W y := by
  obtain ⟨-, -, e0, e1, -⟩ := idx_facts t
  rw [View.read_apply]
  show W _ = W _
  refine congrArg W ?_
  funext a
  apply Fin.ext
  match a with
  | ⟨0, _⟩ => show win0_1.index t 0 * 128 + 1 * (y 0).val = (y 0).val; rw [e0]; omega
  | ⟨1, _⟩ => show win0_1.index t 1 * 128 + 1 * (y 1).val = (y 1).val; rw [e1]; omega

/-- The bias window's block, read off any [1,128] array, is that array, at every point. -/
theorem bias_read (B : FVec Ideal S1x128 .f32) (t : Fin cfg0.N) (y : S1x128.Idx) :
    (((cfg0.win 2).blk t).view.read (Elt Ideal) B : Vec Ideal S1x128 .f32) y = B y := by
  obtain ⟨-, -, -, -, e0, e1, -⟩ := idx_facts t
  rw [View.read_apply]
  show B _ = B _
  refine congrArg B ?_
  funext a
  apply Fin.ext
  match a with
  | ⟨0, _⟩ => show win0_2.index t 0 * 1 + 1 * (y 0).val = (y 0).val; rw [e0]; omega
  | ⟨1, _⟩ => show win0_2.index t 1 * 128 + 1 * (y 1).val = (y 1).val; rw [e1]; omega

/-! ## One element of one block -/

/-- THE ELEMENT: the body's stored value at row `r`, column `q` of a block whose rows are rows of a real
    array `A` (row `r` of the block being row `p` of `A`), against the composed weight and bias of real
    `W₁`, `b₁`, `W₂`, `b₂`, is the two affine maps in a row, clamped at zero. -/
theorem point_eq (A : FVec Ideal S100000x128 .f32) (x3 : FVec Ideal S128x128 .f32) (x4 : FVec Ideal S128 .f32)
    (x5 : FVec Ideal S128x128 .f32) (x6 : FVec Ideal S128 .f32)
    (hA : ∀ i, IsReal (A i)) (h3 : ∀ i, IsReal (x3 i)) (h4 : ∀ i, IsReal (x4 i)) (h5 : ∀ i, IsReal (x5 i))
    (h6 : ∀ i, IsReal (x6 i))
    (b0 : Vec Ideal S10000x128 .f32) (b1 : Vec Ideal S128x128 .f32) (b2 : Vec Ideal S1x128 .f32)
    (p : Fin 100000) (r : Fin 10000) (q : Fin 128)
    (hb0 : ∀ k : Fin 128, b0 (ix2 r k) = A (ix2 p k))
    (hb1 : ∀ k q' : Fin 128, b1 (ix2 k q') = Wc x3 x5 (ix2 k q'))
    (hb2 : ∀ q' : Fin 128, b2 (ix2 (0 : Fin 1) q') = bc x4 x5 x6 (ix2 (0 : Fin 1) q')) :
    k0_pay1 b0 b1 b2 (ix2 r q)
      = max ((∑ l : Fin 128, ((∑ k : Fin 128, A (ix2 p k) * x3 (ix2 k l)) + x4 (ix1 l)) * x5 (ix2 l q))
          + x6 (ix1 q)) 0 := by
  rw [pay_apply, hb2, bc_apply]
  have e : ∀ k : Fin 128, b0 (ix2 r k) * b1 (ix2 k q) = A (ix2 p k) * ∑ l : Fin 128, x3 (ix2 k l) * x5 (ix2 l q) :=
    fun k => by rw [hb0, hb1, Wc_apply]
  rw [Finset.sum_congr rfl fun k _ => e k]
  exact relu_affine_collapse A x3 x5 x4 x6 hA h3 h4 h5 h6 p q

/-! ## One block -/

/-- One element of the block the body stores at point `t`, over ANY arrays `A`, `W`, `B` staged through the
    three input windows and any array `Gv` that agrees with the body's value element by element: row `r` of
    the block is row `10000 t + r`. -/
theorem block_elem (A : FVec Ideal S100000x128 .f32) (W : FVec Ideal S128x128 .f32) (B : FVec Ideal S1x128 .f32)
    (Gv : FVec Ideal S100000x128 .f32)
    (hG : ∀ (p : Fin 100000) (r : Fin 10000) (q : Fin 128) (b0 : Vec Ideal S10000x128 .f32) (b1 : Vec Ideal S128x128 .f32)
      (b2 : Vec Ideal S1x128 .f32), (∀ k : Fin 128, b0 (ix2 r k) = A (ix2 p k)) → (∀ k q' : Fin 128, b1 (ix2 k q') = W (ix2 k q'))
      → (∀ q' : Fin 128, b2 (ix2 (0 : Fin 1) q') = B (ix2 (0 : Fin 1) q')) → k0_pay1 b0 b1 b2 (ix2 r q) = Gv (ix2 p q))
    (t : Fin cfg0.N) (y : S10000x128.Idx) (i : S100000x128.Idx)
    (h0 : (i 0).val = 10000 * t.val + (y 0).val) (h1 : (i 1).val = (y 1).val) :
    k0_pay1 (((cfg0.win 0).blk t).view.read (Elt Ideal) A) (((cfg0.win 1).blk t).view.read (Elt Ideal) W)
      (((cfg0.win 2).blk t).view.read (Elt Ideal) B) y = Gv i := by
  obtain ⟨r, q, rfl⟩ : ∃ (r : Fin 10000) (q : Fin 128), y = ix2 r q := ⟨y 0, y 1, eq_ix2 y⟩
  obtain ⟨p, q', rfl⟩ : ∃ (p : Fin 100000) (q' : Fin 128), i = ix2 p q' := ⟨i 0, i 1, eq_ix2 i⟩
  obtain rfl : q' = q := Fin.ext h1
  exact hG p r q' _ _ _ (fun k => rows_read A t (ix2 r k) (ix2 p k) h0 rfl) (fun k q'' => weight_read W t _)
    (fun q'' => bias_read B t _)

/-- So the block the body stores at point `t` is block `t` of `Gv`. -/
theorem block_eq (A : FVec Ideal S100000x128 .f32) (W : FVec Ideal S128x128 .f32) (B : FVec Ideal S1x128 .f32)
    (Gv : FVec Ideal S100000x128 .f32)
    (hG : ∀ (p : Fin 100000) (r : Fin 10000) (q : Fin 128) (b0 : Vec Ideal S10000x128 .f32) (b1 : Vec Ideal S128x128 .f32)
      (b2 : Vec Ideal S1x128 .f32), (∀ k : Fin 128, b0 (ix2 r k) = A (ix2 p k)) → (∀ k q' : Fin 128, b1 (ix2 k q') = W (ix2 k q'))
      → (∀ q' : Fin 128, b2 (ix2 (0 : Fin 1) q') = B (ix2 (0 : Fin 1) q')) → k0_pay1 b0 b1 b2 (ix2 r q) = Gv (ix2 p q))
    (t : Fin cfg0.N) :
    (cfg0.win 3).cut (grid0.coords t) (k0_pay1 (((cfg0.win 0).blk t).view.read (Elt Ideal) A)
        (((cfg0.win 1).blk t).view.read (Elt Ideal) W) (((cfg0.win 2).blk t).view.read (Elt Ideal) B))
      = ((cfg0.win 3).blk t).view.read (Elt Ideal) Gv := by
  obtain ⟨-, -, -, -, -, -, e0, e1⟩ := idx_facts t
  funext j
  show k0_pay1 _ _ _ j = Gv (((cfg0.win 3).blk t).view.emb j)
  refine block_elem A W B Gv hG t j _ ?_ ?_
  · show win0_3.index t 0 * 10000 + 1 * (j 0).val = 10000 * t.val + (j 0).val
    rw [e0]; omega
  · show win0_3.index t 1 * 128 + 1 * (j 1).val = (j 1).val
    rw [e1]; omega

/-! ## The run -/

/-- Every float argument holds real numbers on device `c` (what the precondition gives). -/
def RealInputs (c : Dev nD) : Prop :=
  (∀ i, IsReal (arg0 m c i)) ∧ (∀ i, IsReal (arg3 m c i)) ∧ (∀ i, IsReal (arg4 m c i)) ∧ (∀ i, IsReal (arg5 m c i))
    ∧ (∀ i, IsReal (arg6 m c i))

/-- The result: the reference's composed function of the seven arguments. -/
abbrev G (c : Dev nD) : FVec Ideal S100000x128 .f32 :=
  Cert.ReferenceIdeal.Read.val_main_v18 (F := Ideal) (arg0 m c) (arg1 m c) (arg2 m c) (arg3 m c) (arg4 m c) (arg5 m c) (arg6 m c)

/-- The row block at point `t` is read off the aggregation, -/
theorem iblk_rows (c : Dev nD) (t : Fin cfg0.N) :
    iblk m c 0 t = ((cfg0.win 0).blk t).view.read (Elt Ideal) (Agg (arg0 m c) (arg1 m c) (arg2 m c)) :=
  congrArg (fun X : FVec Ideal S100000x128 .f32 => ((cfg0.win 0).blk t).view.read (Elt Ideal) X) (V_agg m c)
/-- the weight block off the composed weight, -/
theorem iblk_weight (c : Dev nD) (t : Fin cfg0.N) :
    iblk m c 1 t = ((cfg0.win 1).blk t).view.read (Elt Ideal) (Wc (arg3 m c) (arg5 m c)) :=
  congrArg (fun X : FVec Ideal S128x128 .f32 => ((cfg0.win 1).blk t).view.read (Elt Ideal) X) (V_weight m c)
/-- the bias block off the composed bias. -/
theorem iblk_bias (c : Dev nD) (t : Fin cfg0.N) :
    iblk m c 2 t = ((cfg0.win 2).blk t).view.read (Elt Ideal) (bc (arg4 m c) (arg5 m c) (arg6 m c)) :=
  congrArg (fun X : FVec Ideal S1x128 .f32 => ((cfg0.win 2).blk t).view.read (Elt Ideal) X) (V_bias m c)

/-- WHAT POINT `t` WRITES BACK is block `t` of the reference's function of the arguments. -/
theorem flushed_eq (c : Dev nD) (hreal : RealInputs m c) (t : Fin cfg0.N) :
    (dats m 0 c).flushed 3 t = ((cfg0.win 3).blk t).view.read (Elt Ideal) (G m c) := by
  rw [Cert.KernelIdeal.Value.flushed3]
  unfold out0_3
  rw [View.canon_unit_zero hz]
  simp only [View.ld_unit_zero (S := S10000x128) hz, View.ld_unit_zero (S := S128x128) hz, View.ld_unit_zero (S := S1x128) hz]
  rw [iblk_rows, iblk_weight, iblk_bias]
  obtain ⟨h0, h3, h4, h5, h6⟩ := hreal
  refine block_eq (Agg (arg0 m c) (arg1 m c) (arg2 m c)) (Wc (arg3 m c) (arg5 m c)) (bc (arg4 m c) (arg5 m c) (arg6 m c))
    (G m c) ?_ t
  intro p r q b0 b1 b2 hb0 hb1 hb2
  exact (point_eq (Agg (arg0 m c) (arg1 m c) (arg2 m c)) (arg3 m c) (arg4 m c) (arg5 m c) (arg6 m c)
      (agg_real (arg0 m c) (arg1 m c) (arg2 m c) h0) h3 h4 h5 h6 b0 b1 b2 p r q hb0 hb1 hb2).trans
    (ref_apply (arg0 m c) (arg1 m c) (arg2 m c) (arg3 m c) (arg4 m c) (arg5 m c) (arg6 m c) p q).symm

/-- An index of the result array is in point `t`'s block iff each coordinate is in the block's range. -/
theorem mem_blk (t : Fin cfg0.N) (i : S100000x128.Idx) :
    i ∈ ((cfg0.win 3).blk t).view.set ↔ ∀ a : Fin 2, win0_3.index t a * S10000x128.size a ≤ (i a).val
      ∧ (i a).val < win0_3.index t a * S10000x128.size a + S10000x128.size a := by
  show i ∈ ((View.whole main_v16).slice (win0_3.rect t)).set ↔ _
  rw [View.set_slice_whole, Rect.mem_set_unit]
  exact Iff.rfl

/-- The ten blocks of 10000 rows cover the result array: row `ρ` is in block `ρ / 10000`. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 10 := N_0
  obtain ⟨t, ht⟩ : ∃ t : Fin cfg0.N, t.val = (i 0).val / 10000 := ⟨⟨(i 0).val / 10000, by rw [hN]; omega⟩, rfl⟩
  obtain ⟨-, -, -, -, -, -, e0, e1⟩ := idx_facts t
  refine ⟨t, flush0_3 t, ?_⟩
  rw [mem_blk]
  intro a
  match a with
  | ⟨0, _⟩ =>
    show win0_3.index t 0 * 10000 ≤ (i 0).val ∧ (i 0).val < win0_3.index t 0 * 10000 + 10000
    rw [e0, ht]; omega
  | ⟨1, _⟩ =>
    show win0_3.index t 1 * 128 ≤ (i 1).val ∧ (i 1).val < win0_3.index t 1 * 128 + 128
    rw [e1]; omega

/-- So the result array ends holding the reference's function of the arguments. -/
theorem final (c : Dev nD) (hreal : RealInputs m c) : (dats m 0 c).arrAt 3 cfg0.N = G m c :=
  (dats m 0 c).arrAt_eq_of_cover 3 (G m c) (fun t _ => flushed_eq m c hreal t) cover

/-- The kernel's run, read: the result at the reference's function of the arguments, the arguments unchanged. -/
theorem run (hreal : ∀ c, RealInputs m c) :
    θ_run defs (onTc (τ := τ) (main (F := Ideal))) ⟨m, fun _ => 0, ρ⟩ fun r => ∀ c : Dev nD,
      r.2.mem ((c : Thread nD τ).loc main_v16) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c (hreal c)), (h c).2⟩)
    (Cert.KernelIdeal.Value.run_blocks m ρ)

end Cert.Hand

end
-- ==== Proof.lean ====
/-
  The kernel: a graph layer. Node features are gathered along the edges' sources and added onto the edges'
  targets (the aggregation `Agg`, formed by the same host gather and scatter-add in both programs); then the
  reference computes  relu((Agg · W₁ + b₁) · W₂ + b₂),  while the kernel's wrapper first forms the composed weight
  W₁ W₂ and the composed bias b₁ W₂ + b₂ and the kernel body computes  max(Agg · (W₁ W₂) + (b₁ W₂ + b₂), 0)
  block by block over ten blocks of 10000 rows.

  On the extended reals the two agree where every entry is a real number: distributivity and the exchange of
  two finite sums (LibRealEntries.lean, RealLaw.lean). The precondition makes every float input real (FiniteInputs.lean); the
  aggregation is then real, being zero plus a finite sum of gathered entries (RefAt.lean). The reference's result
  is read at an element in RefAt.lean, the kernel's operands and stored value in KernelVals.lean and
  KernelDots.lean, and the blocks are joined into the array in KernelRun.lean. The ideal pass rewrote nothing, so
  `preserves` is trivial; the three frames are the generated ones (the reference's from its generated run).
-/
import proofs.«118704_j79362405696145_2_alg».proof.Defs
import proofs.«118704_j79362405696145_2_alg».proof.Proof.Gen.Kernel
import proofs.«118704_j79362405696145_2_alg».proof.Proof.Gen.Kernel.Skeleton
import proofs.«118704_j79362405696145_2_alg».proof.Proof.Gen.Kernel.Launch
import proofs.«118704_j79362405696145_2_alg».proof.Proof.Gen.Kernel.Points
import proofs.«118704_j79362405696145_2_alg».proof.Proof.Gen.Kernel.Frame
import proofs.«118704_j79362405696145_2_alg».proof.Proof.Gen.KernelIdeal
import proofs.«118704_j79362405696145_2_alg».proof.Proof.Gen.KernelIdeal.Skeleton
import proofs.«118704_j79362405696145_2_alg».proof.Proof.Gen.KernelIdeal.Launch
import proofs.«118704_j79362405696145_2_alg».proof.Proof.Gen.KernelIdeal.Points
import proofs.«118704_j79362405696145_2_alg».proof.Proof.Gen.KernelIdeal.Frame
import proofs.«118704_j79362405696145_2_alg».proof.Proof.Gen.ReferenceIdeal
import proofs.«118704_j79362405696145_2_alg».proof.Proof.Gen.Pre_finite_inputs
import proofs.«118704_j79362405696145_2_alg».proof.Proof.Gen.KernelIdeal.Value
import proofs.«118704_j79362405696145_2_alg».proof.Proof.Gen.ReferenceIdeal.Run
import proofs.«118704_j79362405696145_2_alg».proof.Proof.Gen.ReferenceIdeal.Read
import proofs.«118704_j79362405696145_2_alg».proof.Proof.FiniteInputs
import proofs.«118704_j79362405696145_2_alg».proof.Proof.KernelRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Under the precondition every float argument of the idealized kernel is real, on every device. -/
theorem real_inputs (m : (ℓ : Loc Cert.KernelIdeal.nD Cert.KernelIdeal.τ Cert.KernelIdeal.sig) → Buf (Elt Ideal) ℓ)
    (hpre : Cert.Pre_KernelIdeal m) (c : Dev Cert.KernelIdeal.nD) : Cert.Hand.RealInputs m c :=
  Cert.Hand.inputs_real _ _ _ _ _ _ _ (hpre c)

/-- Both idealized programs end with the result array at the reference's function of the arguments: the kernel by
    its blocks (KernelRun.lean), the reference by its generated run, whose term is that function. -/
theorem algebraic : Cert.algebraic_KernelIdeal_ReferenceIdeal := by
  intro m ρ m' ρ' hpre hagree
  refine ⟨fun c => Cert.Hand.G m c, Cert.Hand.run m ρ (real_inputs m hpre), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, (hagree c).1, (hagree c).2.1, (hagree c).2.2.1, (hagree c).2.2.2.1,
    (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
